-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S16x4096 .f32) (main_arg3 : FVec F S4096x16 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S2048x2048 : Shape := ⟨2, ![2048, 2048]⟩
abbrev S16x2048 : Shape := ⟨2, ![16, 2048]⟩
abbrev S2048x16 : Shape := ⟨2, ![2048, 16]⟩
abbrev S8192x4096 : Shape := ⟨2, ![8192, 4096]⟩
abbrev S1x4096 : Shape := ⟨2, ![1, 4096]⟩
abbrev S2048x512 : Shape := ⟨2, ![2048, 512]⟩
abbrev S1x2048 : Shape := ⟨2, ![1, 2048]⟩

abbrev nBuf : Space → Nat
  | .hbm => 10
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096, .f32⟩
  | .hbm, ⟨5, _⟩ => ⟨S4096x4096, .bf16⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S4x2048x4096, .f32⟩
  | .local _ .vmem, ⟨0, _⟩ => ⟨S2048x2048, .f32⟩
  | .local _ .vmem, ⟨1, _⟩ => ⟨S2048x2048, .f32⟩
  | .local _ .vmem, ⟨2, _⟩ => ⟨S16x2048, .f32⟩
  | .local _ .vmem, ⟨3, _⟩ => ⟨S16x2048, .f32⟩
  | .local _ .vmem, ⟨4, _⟩ => ⟨S2048x16, .f32⟩
  | .local _ .vmem, ⟨5, _⟩ => ⟨S2048x16, .f32⟩
  | .local _ .vmem, ⟨6, _⟩ => ⟨S2048x2048, .bf16⟩
  | .local _ .vmem, ⟨7, _⟩ => ⟨S2048x2048, .bf16⟩
  | .local _ .vmem, ⟨8, _⟩ => ⟨S2048x512, .f32⟩
  | .local _ .vmem, ⟨9, _⟩ => ⟨S2048x512, .f32⟩
  | .local _ .vmem, ⟨10, _⟩ => ⟨S2048x512, .bf16⟩
  | .local _ .vmem, ⟨11, _⟩ => ⟨S2048x512, .bf16⟩
  | .local _ .vmem, ⟨12, _⟩ => ⟨S1x2048, .f32⟩
  | .local _ .vmem, ⟨13, _⟩ => ⟨S1x2048, .f32⟩
  | .local _ .vmem, ⟨14, _⟩ => ⟨S2048x2048, .f32⟩
  | .local _ .vmem, ⟨15, _⟩ => ⟨S2048x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![4, 2, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S2048x2048_S2048x2048_0_0 : ∀ a, (![0, 0] : Fin 2 → Nat) a + S2048x2048.size a ≤ S2048x2048.size a
  h_S2048x2048 : 0 < S2048x2048.numel
  inb_S16x2048_S16x2048_0_0 : ∀ a, (![0, 0] : Fin 2 → Nat) a + S16x2048.size a ≤ S16x2048.size a
  h_S16x2048 : 0 < S16x2048.numel
  bitsLt_bf16_f32 : FTy.bits .bf16 < FTy.bits .f32
  inb_S2048x16_S2048x16_0_0 : ∀ a, (![0, 0] : Fin 2 → Nat) a + S2048x16.size a ≤ S2048x16.size a
  h_S2048x16 : 0 < S2048x16.numel
  packedbf16_S2048x2048_S2048x2048_0_0 : (Rect.unit (s := S2048x2048) ![0, 0] S2048x2048.size inb_S2048x2048_S2048x2048_0_0).PackedRows (EltTy.packing .bf16)
  shapeCasts_S4x2048x4096_S8192x4096 : S4x2048x4096.ShapeCasts S8192x4096
  shapeCasts_S4096_S1x4096 : S4096.ShapeCasts S1x4096
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  shapeCasts_S8192x4096_S4x2048x4096 : S8192x4096.ShapeCasts S4x2048x4096
  dot_S2048x16_S16x2048_S2048x2048_1_0_0_1_n_n_wf : DotDims.WF S2048x16 S16x2048 S2048x2048 [1] [0] [0] [1] [] []
  dot_S2048x512_S2048x512_S2048x2048_1_1_0_0_n_n_wf : DotDims.WF S2048x512 S2048x512 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S4096x4096.size a
  hwx0_0 : ∀ i : grid0.Coords, EltTy.bits .f32 = 32 ∨ (Rect.block (s := S4096x4096) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x2048.size a ≤ S16x4096.size a
  hwx0_1 : ∀ i : grid0.Coords, EltTy.bits .f32 = 32 ∨ (Rect.block (s := S16x4096) S16x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S4096x16.size a
  hwx0_2 : ∀ i : grid0.Coords, EltTy.bits .f32 = 32 ∨ (Rect.block (s := S4096x16) S2048x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S4096x4096.size a
  hwx0_3 : ∀ i : grid0.Coords, EltTy.bits .bf16 = 32 ∨ (Rect.block (s := S4096x4096) S2048x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x4096.size a
  hwx1_0 : ∀ i : grid1.Coords, EltTy.bits .f32 = 32 ∨ (Rect.block (s := S8192x4096) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x2048.size a ≤ S8192x4096.size a
  hwx1_3 : ∀ i : grid1.Coords, EltTy.bits .f32 = 32 ∨ (Rect.block (s := S8192x4096) S2048x2048.size (cc1_transform_3 i) (hinb1_3 i)).WholeWords (EltTy.packing .f32)

variable [Facts₀]

def dot_S2048x16_S16x2048_S2048x2048_1_0_0_1_n_n : DotDims S2048x16 S16x2048 S2048x2048 where
  lhsContracting := [1]
  rhsContracting := [0]
  lhsNonContracting := [0]
  rhsNonContracting := [1]
  lhsBatch := []
  rhsBatch := []
  wf := dot_S2048x16_S16x2048_S2048x2048_1_0_0_1_n_n_wf
def dot_S2048x512_S2048x512_S2048x2048_1_1_0_0_n_n : DotDims S2048x512 S2048x512 S2048x2048 where
  lhsContracting := [1]
  rhsContracting := [1]
  lhsNonContracting := [0]
  rhsNonContracting := [0]
  lhsBatch := []
  rhsBatch := []
  wf := dot_S2048x512_S2048x512_S2048x2048_1_1_0_0_n_n_wf

abbrev win0_0 : Pipeline.Window sig grid0 :=
  Pipeline.Window.ofSpec (Memref.whole main_arg1) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2048x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2048x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S_ : Shape := ⟨0, ![]⟩
abbrev S1x1x4096 : Shape := ⟨3, ![1, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4x2048x4096, .f32⟩
  | .hbm, ⟨11, _⟩ => ⟨S1x1x4096, .f32⟩
  | .hbm, ⟨12, _⟩ => ⟨S4x2048x4096, .f32⟩
  | .hbm, ⟨13, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x16_S16x4096_S4096x4096_1_0_0_1_n_n_wf : DotDims.WF S4096x16 S16x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibTileDot.lean ====
/-
  A tile product into the zero accumulator, read at one output index, at the ideal values and whatever precision
  the operation names: with the contraction running over one axis of extent `K`, the entry is the sum over
  `k : Fin K` of the left operand times the right operand, each read at the index the dimension numbers assign to
  the output index and `k`. The caller names the two operand indices as functions of `k`.
-/
import Idealize.ShloMosaic.Lib.ValueIdx
import Idealize.ShloMosaic.PureOps.Ideal.Laws

noncomputable section

namespace Cert.LibTileDot

open Idealize.ShloMosaic Idealize.ShloMosaic.ValueIdx

/-- The matrix unit's product of two tiles into a zero accumulator, at output index `j`: the sum over the one
    contracted axis, each factor read where the dimension numbers send `j` and `k`. -/
theorem matmul_zero_at {sl sr so : Shape} {φ₁ φ₂ : FTy} (d : DotDims sl sr so) (prec : Option ContractPrecision) (K : ℕ)
    (hr : d.contr.rank = 1) (hs : d.contr.size ⟨0, by omega⟩ = K)
    (lhs : FVec Ideal sl φ₁) (rhs : FVec Ideal sr φ₂) (j : so.Idx)
    (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    FloatOps.matmul d prec lhs rhs (constant so .f32 0x00000000#32) j = ∑ k : Fin K, lhs (li k) * rhs (ri k) := by
  rw [Ideal.matmul_constant_zero_apply, ← Equiv.sum_comp (contrEquiv1 d K hr hs).symm]
  exact Finset.sum_congr rfl fun k _ => by rw [hl k, hri k]

end Cert.LibTileDot

end
-- ==== Proof.Payloads.lean ====
/-
  The kernels' arithmetic read at an index, at the ideal values.

  Stage one stores, at (p, q) of a 2048 x 2048 tile, w(p, q) + 2 * sum over r < 16 of b(p, r) * a(r, q): the
  roundings to bf16 are the identity on exact values, and the matrix unit's product into a zero accumulator is the
  plain sum over the contracted axis.  Stage two's three stores are the zero tile; acc(p, q) + sum over d < 512 of
  x(p, d) * w(q, d) (the second operand is contracted along ITS second axis: a product with the transpose); and
  v(p, q) + bias(0, q), the one-row bias broadcast down the rows.
-/
import proofs.«147459_j11055245819948_2_alg».proof.Proof.Gen.KernelIdeal.Skeleton
import proofs.«147459_j11055245819948_2_alg».proof.Proof.LibTileDot
import Idealize.ShloMosaic.Lib.Pipeline.Value
import Idealize.ShloMosaic.Lib.ValueIdx
import Idealize.ShloMosaic.PureOps.Ideal.Laws

noncomputable section

namespace Cert.KernelSide

open Idealize.ShloMosaic Idealize.ShloMosaic.ValueIdx Cert.KernelIdeal Cert.KernelIdeal.Gen

/-! ## Where the two contractions read their operands -/

section StageOneDot

local notation "dA" => dot_S2048x16_S16x2048_S2048x2048_1_0_0_1_n_n

theorem dA_lhs (p q : Fin 2048) (k : Fin 16) :
    DotDims.lhsIdx dA (ix2 p q) ((contrEquiv1 dA 16 rfl rfl).symm k) = (ix2 p k : S2048x16.Idx) := by
  have hk := contrEquiv1_symm_val dA 16 rfl rfl k
  refine funext fun a => Fin.ext ?_
  match a with
  | ⟨0, _⟩ =>
    show (DotDims.lhsIdx dA (ix2 p q) _ 0).val = p.val
    unfold DotDims.lhsIdx
    rw [dif_neg (show ¬(0 : Fin S2048x16.rank) ∈ (dA).lhsBatch by decide), dif_pos (show (0 : Fin S2048x16.rank) ∈ (dA).lhsNonContracting by decide)]
    rfl
  | ⟨1, _⟩ => exact ((dA).lhsIdx_val_of_single rfl _ _).trans hk

theorem dA_rhs (p q : Fin 2048) (k : Fin 16) :
    DotDims.rhsIdx dA (ix2 p q) ((contrEquiv1 dA 16 rfl rfl).symm k) = (ix2 k q : S16x2048.Idx) := by
  have hk := contrEquiv1_symm_val dA 16 rfl rfl k
  refine funext fun a => Fin.ext ?_
  match a with
  | ⟨0, _⟩ => exact ((dA).rhsIdx_val_of_single rfl _ _).trans hk
  | ⟨1, _⟩ =>
    show (DotDims.rhsIdx dA (ix2 p q) _ 1).val = q.val
    unfold DotDims.rhsIdx
    rw [dif_neg (show ¬(1 : Fin S16x2048.rank) ∈ (dA).rhsBatch by decide), dif_pos (show (1 : Fin S16x2048.rank) ∈ (dA).rhsNonContracting by decide)]
    rfl

end StageOneDot

section StageTwoDot

local notation "dB" => dot_S2048x512_S2048x512_S2048x2048_1_1_0_0_n_n

theorem dB_lhs (p q : Fin 2048) (k : Fin 512) :
    DotDims.lhsIdx dB (ix2 p q) ((contrEquiv1 dB 512 rfl rfl).symm k) = (ix2 p k : S2048x512.Idx) := by
  have hk := contrEquiv1_symm_val dB 512 rfl rfl k
  refine funext fun a => Fin.ext ?_
  match a with
  | ⟨0, _⟩ =>
    show (DotDims.lhsIdx dB (ix2 p q) _ 0).val = p.val
    unfold DotDims.lhsIdx
    rw [dif_neg (show ¬(0 : Fin S2048x512.rank) ∈ (dB).lhsBatch by decide), dif_pos (show (0 : Fin S2048x512.rank) ∈ (dB).lhsNonContracting by decide)]
    rfl
  | ⟨1, _⟩ => exact ((dB).lhsIdx_val_of_single rfl _ _).trans hk

theorem dB_rhs (p q : Fin 2048) (k : Fin 512) :
    DotDims.rhsIdx dB (ix2 p q) ((contrEquiv1 dB 512 rfl rfl).symm k) = (ix2 q k : S2048x512.Idx) := by
  have hk := contrEquiv1_symm_val dB 512 rfl rfl k
  refine funext fun a => Fin.ext ?_
  match a with
  | ⟨0, _⟩ =>
    show (DotDims.rhsIdx dB (ix2 p q) _ 0).val = q.val
    unfold DotDims.rhsIdx
    rw [dif_neg (show ¬(0 : Fin S2048x512.rank) ∈ (dB).rhsBatch by decide), dif_pos (show (0 : Fin S2048x512.rank) ∈ (dB).rhsNonContracting by decide)]
    rfl
  | ⟨1, _⟩ => exact ((dB).rhsIdx_val_of_single rfl _ _).trans hk

end StageTwoDot

/-! ## The payloads at an index -/

/-- Stage one's store: the weight tile plus twice the low-rank product. -/
theorem stage1_at (v0 : Vec Ideal S2048x2048 .f32) (v1 : Vec Ideal S16x2048 .f32) (v3 : Vec Ideal S2048x16 .f32)
    (p q : Fin 2048) :
    k0_pay1 v0 v1 v3 (ix2 p q)
      = v0 (ix2 p q) + Ideal.ofBits .f32 0x40000000#32 * ∑ r : Fin 16, v3 (ix2 p r) * v1 (ix2 r q) := by
  unfold k0_pay1
  refine congrArg (fun z => v0 (ix2 p q) + Ideal.ofBits .f32 0x40000000#32 * z) ?_
  exact Cert.LibTileDot.matmul_zero_at dot_S2048x16_S16x2048_S2048x2048_1_0_0_1_n_n none 16 rfl rfl _ _ (ix2 p q)
    (fun k => ix2 p k) (fun k => ix2 k q) (dA_lhs p q) (dA_rhs p q)

/-- Stage two's reset: the zero tile. -/
theorem reset_at (y : S2048x2048.Idx) : k1_pay1 (F := Ideal) y = Ideal.ofBits .f32 0x00000000#32 := rfl

/-- Stage two's accumulation: what the tile held plus this step's 512 products. -/
theorem accum_at (x : Vec Ideal S2048x512 .f32) (w : Vec Ideal S2048x512 .bf16) (acc : Vec Ideal S2048x2048 .f32)
    (p q : Fin 2048) :
    k1_pay2 x w acc (ix2 p q) = acc (ix2 p q) + ∑ d : Fin 512, x (ix2 p d) * w (ix2 q d) := by
  unfold k1_pay2
  simp only [shapeCast_self]
  refine congrArg (fun z => acc (ix2 p q) + z) ?_
  exact Cert.LibTileDot.matmul_zero_at dot_S2048x512_S2048x512_S2048x2048_1_1_0_0_n_n none 512 rfl rfl _ _ (ix2 p q)
    (fun k => ix2 p k) (fun k => ix2 q k) (dB_lhs p q) (dB_rhs p q)

/-- Stage two's last store: the bias row added to every row of the tile. -/
theorem bias_at (v : Vec Ideal S2048x2048 .f32) (b : Vec Ideal S1x2048 .f32) (p q : Fin 2048) :
    k1_pay3 v b (ix2 p q) = v (ix2 p q) + b (ix2 (0 : Fin 1) q) := by
  unfold k1_pay3
  simp only [shapeCast_self]
  refine congrArg (fun z => v (ix2 p q) + z) ?_
  exact broadcastTo_apply b broadcasts_S1x2048_S2048x2048 (ix2 p q) (ix2 (0 : Fin 1) q) (fun a => match a with
    | ⟨0, _⟩ => by show (0 : ℕ) = if (1 : ℕ) = 1 then 0 else _; rw [if_pos rfl]
    | ⟨1, _⟩ => by show q.val = if (2048 : ℕ) = 1 then 0 else q.val; rw [if_neg (by decide)])

end Cert.KernelSide

end
-- ==== Proof.EffWeight.lean ====
/-
  Stage one as a whole: the array it leaves is the effective weight.

  The 4096 x 4096 result is tiled by four 2048 x 2048 blocks, point t = 2 i + j writing block (i, j) from the
  weight's block (i, j), columns 2048 j .. of the 16-row factor and rows 2048 i .. of the 16-column factor.  So
  entry (o, d) of the result is  w(o, d) + 2 * sum over r < 16 of b(o, r) * a(r, d),  whichever tile it lies in,
  and every entry lies in exactly the tile (o / 2048, d / 2048).
-/
import proofs.«147459_j11055245819948_2_alg».proof.Proof.Gen.KernelIdeal.Frame
import proofs.«147459_j11055245819948_2_alg».proof.Proof.Payloads
import Idealize.ShloMosaic.Lib.Pipeline.Value

noncomputable section

namespace Cert.KernelSide

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem zero_offsets0 : (![0, 0] : Fin 2 → Nat) = fun _ => 0 := funext fun a => by fin_cases a <;> rfl

/-- The effective weight at (o, d): the weight plus twice the low-rank product. -/
def ewAt (Wm : S4096x4096.Idx → EReal) (Am : S16x4096.Idx → EReal) (Bm : S4096x16.Idx → EReal) (o d : Fin 4096) : EReal :=
  Wm (ix2 o d) + Ideal.ofBits .f32 0x40000000#32 * ∑ r : Fin 16, Bm (ix2 o r) * Am (ix2 r d)

/-- The same as an array. -/
def ewArr (Wm : S4096x4096.Idx → EReal) (Am : S16x4096.Idx → EReal) (Bm : S4096x16.Idx → EReal) : S4096x4096.Idx → EReal :=
  fun y => ewAt Wm Am Bm (y 0) (y 1)

/-- Which block each window is on at point t = 2 i + j: (i, j), (0, j), (i, 0) and, for the result, (i, j). -/
theorem blocks0 : ∀ t : Fin cfg0.N,
    win0_0.index t (0 : Fin 2) = t.val / 2 ∧ win0_0.index t (1 : Fin 2) = t.val % 2
    ∧ win0_1.index t (0 : Fin 2) = 0 ∧ win0_1.index t (1 : Fin 2) = t.val % 2
    ∧ win0_2.index t (0 : Fin 2) = t.val / 2 ∧ win0_2.index t (1 : Fin 2) = 0
    ∧ win0_3.index t (0 : Fin 2) = t.val / 2 ∧ win0_3.index t (1 : Fin 2) = t.val % 2 :=
  (by decide +kernel : ∀ t : Fin grid0.N, _)

/-- The weight's tile at point t, entry (p, q), is the weight at (2048 (t / 2) + p, 2048 (t % 2) + q). -/
theorem wtile_at (c : Dev nD) (t : Fin cfg0.N) (p q : Fin 2048) (o d : Fin 4096)
    (ho : o.val = 2048 * (t.val / 2) + p.val) (hd : d.val = 2048 * (t.val % 2) + q.val) :
    (iblk0 V c 0 t : Vec Ideal S2048x2048 .f32) (ix2 p q) = (V c main_arg1 : S4096x4096.Idx → EReal) (ix2 o d) := by
  obtain ⟨e0, e1, -⟩ := blocks0 t
  unfold iblk0
  rw [View.read_apply]
  show V c main_arg1 _ = V c main_arg1 _
  refine congrArg (V c main_arg1) (funext fun a => Fin.ext ?_)
  match a with
  | ⟨0, _⟩ => show win0_0.index t (0 : Fin 2) * 2048 + 1 * p.val = o.val; rw [e0, ho]; omega
  | ⟨1, _⟩ => show win0_0.index t (1 : Fin 2) * 2048 + 1 * q.val = d.val; rw [e1, hd]; omega

/-- The 16-row factor's tile at point t, entry (r, q), is the factor at (r, 2048 (t % 2) + q). -/
theorem atile_at (c : Dev nD) (t : Fin cfg0.N) (r : Fin 16) (q : Fin 2048) (d : Fin 4096)
    (hd : d.val = 2048 * (t.val % 2) + q.val) :
    (iblk0 V c 1 t : Vec Ideal S16x2048 .f32) (ix2 r q) = (V c main_arg2 : S16x4096.Idx → EReal) (ix2 r d) := by
  obtain ⟨-, -, e0, e1, -⟩ := blocks0 t
  unfold iblk0
  rw [View.read_apply]
  show V c main_arg2 _ = V c main_arg2 _
  refine congrArg (V c main_arg2) (funext fun a => Fin.ext ?_)
  match a with
  | ⟨0, _⟩ => show win0_1.index t (0 : Fin 2) * 16 + 1 * r.val = r.val; rw [e0]; omega
  | ⟨1, _⟩ => show win0_1.index t (1 : Fin 2) * 2048 + 1 * q.val = d.val; rw [e1, hd]; omega

/-- The 16-column factor's tile at point t, entry (p, r), is the factor at (2048 (t / 2) + p, r). -/
theorem btile_at (c : Dev nD) (t : Fin cfg0.N) (p : Fin 2048) (r : Fin 16) (o : Fin 4096)
    (ho : o.val = 2048 * (t.val / 2) + p.val) :
    (iblk0 V c 2 t : Vec Ideal S2048x16 .f32) (ix2 p r) = (V c main_arg3 : S4096x16.Idx → EReal) (ix2 o r) := by
  obtain ⟨-, -, -, -, e0, e1, -⟩ := blocks0 t
  unfold iblk0
  rw [View.read_apply]
  show V c main_arg3 _ = V c main_arg3 _
  refine congrArg (V c main_arg3) (funext fun a => Fin.ext ?_)
  match a with
  | ⟨0, _⟩ => show win0_2.index t (0 : Fin 2) * 2048 + 1 * p.val = o.val; rw [e0, ho]; omega
  | ⟨1, _⟩ => show win0_2.index t (1 : Fin 2) * 16 + 1 * r.val = r.val; rw [e1]; omega

/-- What point t writes back is block t of the effective weight of the arrays the stage finds. -/
theorem ew_flushed (c : Dev nD) (t : Fin cfg0.N) :
    (dat0 V c).flushed 3 t
      = ((cfg0.win 3).blk t).view.read (Elt Ideal) (ewArr (V c main_arg1) (V c main_arg2) (V c main_arg3)) := by
  show (cfg0.win 3).cut (grid0.coords t) ((dat0 V c).after 3 t) = _
  rw [after0_3]
  unfold out0_3
  rw [View.canon_unit_zero (S := S2048x2048) zero_offsets0]
  simp only [View.ld_unit_zero (S := S2048x2048) zero_offsets0, View.ld_unit_zero (S := S16x2048) zero_offsets0,
    View.ld_unit_zero (S := S2048x16) zero_offsets0]
  obtain ⟨-, -, -, -, -, -, e30, e31⟩ := blocks0 t
  have hN : t.val < 4 := lt_of_lt_of_eq t.isLt N_0
  funext y
  obtain ⟨p, q, rfl⟩ : ∃ (p q : Fin 2048), y = ix2 p q := ⟨y 0, y 1, eq_ix2 y⟩
  have hp := p.isLt
  have hq := q.isLt
  let o : Fin 4096 := ⟨2048 * (t.val / 2) + p.val, by omega⟩
  let d : Fin 4096 := ⟨2048 * (t.val % 2) + q.val, by omega⟩
  have hemb : ((cfg0.win 3).blk t).view.emb (ix2 p q) = (ix2 o d : S4096x4096.Idx) := by
    refine funext fun a => Fin.ext ?_
    match a with
    | ⟨0, _⟩ => show win0_3.index t (0 : Fin 2) * 2048 + 1 * p.val = 2048 * (t.val / 2) + p.val; rw [e30]; omega
    | ⟨1, _⟩ => show win0_3.index t (1 : Fin 2) * 2048 + 1 * q.val = 2048 * (t.val % 2) + q.val; rw [e31]; omega
  rw [View.read_apply, hemb]
  show _ = ewAt _ _ _ o d
  refine (stage1_at (iblk0 V c 0 t) (iblk0 V c 1 t) (iblk0 V c 2 t) p q).trans ?_
  unfold ewAt
  rw [wtile_at V c t p q o d rfl rfl]
  refine congrArg₂ (fun a b : EReal => a + b) rfl (congrArg₂ (fun a b : EReal => a * b) rfl ?_)
  exact Finset.sum_congr rfl fun r _ => by rw [btile_at V c t p r o rfl, atile_at V c t r q d rfl]

/-- An entry is in point t's block iff each coordinate is in the block's range. -/
theorem ew_mem_blk (t : Fin cfg0.N) (i : S4096x4096.Idx) :
    i ∈ ((cfg0.win 3).blk t).view.set ↔ ∀ a : Fin 2, win0_3.index t a * S2048x2048.size a ≤ (i a).val
      ∧ (i a).val < win0_3.index t a * S2048x2048.size a + S2048x2048.size a := by
  show i ∈ ((View.whole main_v0).slice (win0_3.rect t)).set ↔ _
  rw [View.set_slice_whole, Rect.mem_set_unit]
  exact Iff.rfl

/-- Stage one leaves the effective weight of the arrays it finds. -/
theorem ew_final (c : Dev nD) :
    (dat0 V c).arrAt 3 cfg0.N = ewArr (V c main_arg1) (V c main_arg2) (V c main_arg3) :=
  (dat0 V c).arrAt_eq_of_cover 3 (ewArr (V c main_arg1) (V c main_arg2) (V c main_arg3)) (fun t _ => ew_flushed V c t) fun i => by
    have hi0 : (i 0).val < 4096 := (i 0).isLt
    have hi1 : (i 1).val < 4096 := (i 1).isLt
    have hN : cfg0.N = 4 := N_0
    have hlt : 2 * ((i 0).val / 2048) + (i 1).val / 2048 < cfg0.N := by rw [hN]; omega
    obtain ⟨-, -, -, -, -, -, e30, e31⟩ := blocks0 ⟨_, hlt⟩
    refine ⟨⟨_, hlt⟩, flush0_3 _, ?_⟩
    rw [ew_mem_blk]
    intro a
    match a with
    | ⟨0, _⟩ =>
      show win0_3.index ⟨_, hlt⟩ (0 : Fin 2) * 2048 ≤ (i 0).val ∧ (i 0).val < win0_3.index ⟨_, hlt⟩ (0 : Fin 2) * 2048 + 2048
      rw [e30]; dsimp only; omega
    | ⟨1, _⟩ =>
      show win0_3.index ⟨_, hlt⟩ (1 : Fin 2) * 2048 ≤ (i 1).val ∧ (i 1).val < win0_3.index ⟨_, hlt⟩ (1 : Fin 2) * 2048 + 2048
      rw [e31]; dsimp only; omega

end Cert.KernelSide

end
-- ==== Proof.AccPieces.lean ====
/-
  What one grid point of the second stage leaves in the output tile, in each of its three control cases, as a
  value.  At the first step of a reduction (case A) the body stores the zero tile, reads it back and stores
  zero-tile + this step's products; at a middle step (case B) it stores carried-tile + products; at the last
  step (case C) it stores carried-tile + products, reads that back, and stores it plus the bias row.  In every
  case the last store covers the whole tile, so the tile holds that store's value, and each load reads a whole
  buffer back.
-/
import proofs.«147459_j11055245819948_2_alg».proof.Proof.Gen.KernelIdeal.Frame
import Idealize.ShloMosaic.Lib.Pipeline.Value
import Idealize.ShloMosaic.Lib.Tactic

noncomputable section

namespace Cert.KernelSide

open Idealize.ShloMosaic Idealize.ShloMosaic.TcCoe Idealize.SL.Sem Idealize.ShloMosaic.Tactic
open Cert.KernelIdeal Cert.KernelIdeal.Gen

variable {F : FTy → Type} [FloatOps F]

theorem zero_offsets : (![0, 0] : Fin 2 → Nat) = fun _ => 0 := funext fun a => by fin_cases a <;> rfl

/-- A middle step: the carried tile plus this step's products. -/
theorem piece_B (c : Dev nD) (i : grid1.Coords) (a3 : Memref sig .tc .vmem S2048x512 .f32) (h3 : a3.IsWhole)
    (a4 : Memref sig .tc .vmem S2048x512 .bf16) (h4 : a4.IsWhole) (a5 : Memref sig .tc .vmem S1x2048 .f32) (h5 : a5.IsWhole)
    (a6 : Memref sig .tc .vmem S2048x2048 .f32) (h6 : a6.IsWhole) (hc0 : ¬cond1_0 i) (hc1 : ¬cond1_1 i)
    (x0 : Vec F S2048x512 .f32) (x1 : Vec F S2048x512 .bf16) (x2 : Vec F S1x2048 .f32) (xo : Vec F S2048x2048 .f32) :
    out1_B_3 c i a3 h3 a4 h4 a5 h5 a6 h6 hc0 hc1 x0 x1 x2 xo = k1_pay2 x0 x1 xo := by
  unfold out1_B_3
  rw [View.read_writes_eq_canon _ _ _ (cover1_B_3 c i a3 h3 a4 h4 a5 h5 a6 h6 hc0 hc1 x0 x1 x2 xo)]
  unfold kernelRun1_B
  dsimp only
  sl_unfold_words
  rw [View.canon_unit_zero (S := S2048x2048) zero_offsets]
  simp only [View.readAt_eq_ld, h3.read_unread, h4.read_unread, h6.read_unread,
    View.ld_unit_zero (S := S2048x512) zero_offsets, View.ld_unit_zero (S := S2048x2048) zero_offsets]

/-- The first step: the zero tile plus this step's products. -/
theorem piece_A (c : Dev nD) (i : grid1.Coords) (a3 : Memref sig .tc .vmem S2048x512 .f32) (h3 : a3.IsWhole)
    (a4 : Memref sig .tc .vmem S2048x512 .bf16) (h4 : a4.IsWhole) (a5 : Memref sig .tc .vmem S1x2048 .f32) (h5 : a5.IsWhole)
    (a6 : Memref sig .tc .vmem S2048x2048 .f32) (h6 : a6.IsWhole) (hc0 : cond1_0 i) (hc1 : ¬cond1_1 i)
    (x0 : Vec F S2048x512 .f32) (x1 : Vec F S2048x512 .bf16) (x2 : Vec F S1x2048 .f32) :
    out1_A_3 c i a3 h3 a4 h4 a5 h5 a6 h6 hc0 hc1 x0 x1 x2 = k1_pay2 x0 x1 (k1_pay1 (F := F)) := by
  unfold out1_A_3
  rw [View.read_writes_eq_canon _ _ _ (cover1_A_3 c i a3 h3 a4 h4 a5 h5 a6 h6 hc0 hc1 x0 x1 x2)]
  unfold kernelRun1_A
  dsimp only
  sl_unfold_words
  rw [View.canon_cons_unit_zero (S := S2048x2048) zero_offsets, View.readCov_unit_zero (S := S2048x2048) _ zero_offsets]
  simp only [View.readAt_eq_ld, h3.read_unread, h4.read_unread,
    View.ld_unit_zero (S := S2048x512) zero_offsets]

/-- The last step: the carried tile plus this step's products, plus the bias row. -/
theorem piece_C (c : Dev nD) (i : grid1.Coords) (a3 : Memref sig .tc .vmem S2048x512 .f32) (h3 : a3.IsWhole)
    (a4 : Memref sig .tc .vmem S2048x512 .bf16) (h4 : a4.IsWhole) (a5 : Memref sig .tc .vmem S1x2048 .f32) (h5 : a5.IsWhole)
    (a6 : Memref sig .tc .vmem S2048x2048 .f32) (h6 : a6.IsWhole) (hc0 : ¬cond1_0 i) (hc1 : cond1_1 i)
    (x0 : Vec F S2048x512 .f32) (x1 : Vec F S2048x512 .bf16) (x2 : Vec F S1x2048 .f32) (xo : Vec F S2048x2048 .f32) :
    out1_C_3 c i a3 h3 a4 h4 a5 h5 a6 h6 hc0 hc1 x0 x1 x2 xo = k1_pay3 (k1_pay2 x0 x1 xo) x2 := by
  unfold out1_C_3
  rw [View.read_writes_eq_canon _ _ _ (cover1_C_3 c i a3 h3 a4 h4 a5 h5 a6 h6 hc0 hc1 x0 x1 x2 xo)]
  unfold kernelRun1_C
  dsimp only
  sl_unfold_words
  rw [View.canon_cons_unit_zero (S := S2048x2048) zero_offsets, View.readCov_unit_zero (S := S2048x2048) _ zero_offsets]
  simp only [View.readAt_eq_ld, h3.read_unread, h4.read_unread, h5.read_unread, h6.read_unread,
    View.ld_unit_zero (S := S2048x512) zero_offsets, View.ld_unit_zero (S := S2048x2048) zero_offsets,
    View.ld_unit_zero (S := S1x2048) zero_offsets]

end Cert.KernelSide

end
-- ==== Proof.LibSumBlocks.lean ====
/-
  Sums taken block after block.  A finite family `g : Fin n → M` is read at any natural number (zero outside its
  range), so that a stretch of `B` consecutive terms starting at `B * k` is a sum over `range B` of one function of
  the natural numbers; then the first `B * k` terms plus the next `B` are the first `B * (k + 1)`, in any
  commutative additive monoid (on the extended reals too: only associativity is used).
-/
import Mathlib.Algebra.BigOperators.Fin
import Mathlib.Algebra.BigOperators.Intervals

namespace Cert.LibSumBlocks

variable {M : Type*} [AddCommMonoid M]

/-- A finite family read at a natural number: its entry inside the range, zero outside. -/
def ext {n : ℕ} (g : Fin n → M) (d : ℕ) : M := if h : d < n then g ⟨d, h⟩ else 0

theorem ext_of_lt {n : ℕ} (g : Fin n → M) (d : ℕ) (h : d < n) : ext g d = g ⟨d, h⟩ := dif_pos h

/-- The whole family's sum is the sum of its readings over `range n`. -/
theorem sum_univ_eq_range {n : ℕ} (g : Fin n → M) : ∑ k : Fin n, g k = ∑ d ∈ Finset.range n, ext g d := by
  rw [Finset.sum_range]
  exact Finset.sum_congr rfl fun k _ => (ext_of_lt g k.val k.isLt).symm

/-- A block of `B` terms whose `d'`-th term is the family's entry `B * k + d'` is the sum of the readings there. -/
theorem block_eq_range {n : ℕ} (g : Fin n → M) (B k : ℕ) (h : Fin B → M)
    (hh : ∀ d' : Fin B, ∃ hlt : B * k + d'.val < n, h d' = g ⟨B * k + d'.val, hlt⟩) :
    ∑ d' : Fin B, h d' = ∑ d ∈ Finset.range B, ext g (B * k + d) := by
  rw [Finset.sum_range]
  refine Finset.sum_congr rfl fun d' _ => ?_
  obtain ⟨hlt, e⟩ := hh d'
  rw [e, ext_of_lt g _ hlt]

/-- The first `B * k` terms, then the next `B`: the first `B * (k + 1)`. -/
theorem prefix_add_block (f : ℕ → M) (B k : ℕ) :
    (∑ d ∈ Finset.range (B * k), f d) + (∑ d ∈ Finset.range B, f (B * k + d))
      = ∑ d ∈ Finset.range (B * (k + 1)), f d := by
  rw [Nat.mul_succ, Finset.sum_range_add]

end Cert.LibSumBlocks
-- ==== Proof.AccValue.lean ====
/-
  Stage two as a whole: the array it leaves is  x * (effective weight)^T + bias,  each entry's 4096 products
  accumulated 512 at a time.

  The grid is 4 x 2 x 8; point n = 16 i + 8 j + k works on output tile (i, j) (rows 2048 i .., columns 2048 j ..)
  with columns 512 k .. of rows 2048 i .. of x and of rows 2048 j .. of the weight.  After point n the tile's
  entry (p, q) holds  zero + the first 512 (k + 1) products of row r = 2048 i + p of x with row o = 2048 j + q of
  the weight  (and the bias entry o on top when k = 7): by induction on the point, each step adding the next 512
  terms to the prefix (sums over an initial segment of the naturals: only associativity of + is used, so nothing
  is asked of the values).  The tile is written back at k = 7 only, and those 8 tiles cover the array.
-/
import proofs.«147459_j11055245819948_2_alg».proof.Proof.Gen.KernelIdeal.Frame
import proofs.«147459_j11055245819948_2_alg».proof.Proof.Payloads
import proofs.«147459_j11055245819948_2_alg».proof.Proof.AccPieces
import proofs.«147459_j11055245819948_2_alg».proof.Proof.LibSumBlocks
import Idealize.ShloMosaic.Lib.Pipeline.Value

noncomputable section

namespace Cert.KernelSide

open Idealize.ShloMosaic Idealize.ShloMosaic.TcCoe Idealize.SL.Sem Idealize.ShloMosaic.ValueIdx
open Idealize.ShloMosaic.Pipeline (Dat)
open Cert.KernelIdeal Cert.KernelIdeal.Gen Cert.LibSumBlocks

variable (V : (c : Dev nD) → (b : Ref sig .tc) → Buf (Elt Ideal) ((c : Thread nD τ).loc b))

/-- The products of row r of x with row o of the weight, one per contracted position. -/
def rowTerm (X : S8192x4096.Idx → EReal) (Wt : S4096x4096.Idx → EReal) (r : Fin 8192) (o : Fin 4096) : Fin 4096 → EReal :=
  fun d => X (ix2 r d) * Wt (ix2 o d)

/-- The bias row's entry o. -/
def biasAt (b2 : S1x4096.Idx → EReal) (o : Fin 4096) : EReal := b2 (ix2 (0 : Fin 1) o)

/-- The result's entry (r, o): zero plus the 4096 products, plus the bias entry o. -/
def outAt (X : S8192x4096.Idx → EReal) (Wt : S4096x4096.Idx → EReal) (b2 : S1x4096.Idx → EReal) (r : Fin 8192) (o : Fin 4096) : EReal :=
  (Ideal.ofBits .f32 0x00000000#32 + ∑ d : Fin 4096, rowTerm X Wt r o d) + biasAt b2 o

/-- The same as an array. -/
def outArr (X : S8192x4096.Idx → EReal) (Wt : S4096x4096.Idx → EReal) (b2 : S1x4096.Idx → EReal) : S8192x4096.Idx → EReal :=
  fun y => outAt X Wt b2 (y 0) (y 1)

/-- Which block each window is on at point n = 16 i + 8 j + k: (i, k), (j, k), (0, j) and, for the result, (i, j). -/
theorem blocks1 : ∀ t : Fin cfg1.N,
    win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = 0 ∧ win1_2.index t (1 : Fin 2) = t.val / 8 % 2
    ∧ win1_3.index t (0 : Fin 2) = t.val / 16 ∧ win1_3.index t (1 : Fin 2) = t.val / 8 % 2 :=
  (by decide +kernel : ∀ t : Fin grid1.N, _)

/-- x's tile at point t, entry (p, d'), is x at (2048 (t / 16) + p, 512 (t % 8) + d'). -/
theorem xtile_at (c : Dev nD) (t : Fin cfg1.N) (p : Fin 2048) (d' : Fin 512) (r : Fin 8192) (d : Fin 4096)
    (hr : r.val = 2048 * (t.val / 16) + p.val) (hd : d.val = 512 * (t.val % 8) + d'.val) :
    (iblk1 V c 0 t : Vec Ideal S2048x512 .f32) (ix2 p d') = (V c main_v1 : S8192x4096.Idx → EReal) (ix2 r d) := by
  obtain ⟨e0, e1, -⟩ := blocks1 t
  unfold iblk1
  rw [View.read_apply]
  show V c main_v1 _ = V c main_v1 _
  refine congrArg (V c main_v1) (funext fun a => Fin.ext ?_)
  match a with
  | ⟨0, _⟩ => show win1_0.index t (0 : Fin 2) * 2048 + 1 * p.val = r.val; rw [e0, hr]; omega
  | ⟨1, _⟩ => show win1_0.index t (1 : Fin 2) * 512 + 1 * d'.val = d.val; rw [e1, hd]; omega

/-- The weight's tile at point t, entry (q, d'), is the weight at (2048 (t / 8 % 2) + q, 512 (t % 8) + d'). -/
theorem wtile1_at (c : Dev nD) (t : Fin cfg1.N) (q : Fin 2048) (d' : Fin 512) (o d : Fin 4096)
    (ho : o.val = 2048 * (t.val / 8 % 2) + q.val) (hd : d.val = 512 * (t.val % 8) + d'.val) :
    (iblk1 V c 1 t : Vec Ideal S2048x512 .bf16) (ix2 q d') = (V c main_v0 : S4096x4096.Idx → EReal) (ix2 o d) := by
  obtain ⟨-, -, e0, e1, -⟩ := blocks1 t
  unfold iblk1
  rw [View.read_apply]
  show V c main_v0 _ = V c main_v0 _
  refine congrArg (V c main_v0) (funext fun a => Fin.ext ?_)
  match a with
  | ⟨0, _⟩ => show win1_1.index t (0 : Fin 2) * 2048 + 1 * q.val = o.val; rw [e0, ho]; omega
  | ⟨1, _⟩ => show win1_1.index t (1 : Fin 2) * 512 + 1 * d'.val = d.val; rw [e1, hd]; omega

/-- The bias row's tile at point t, entry (0, q), is the bias row at (0, 2048 (t / 8 % 2) + q). -/
theorem btile1_at (c : Dev nD) (t : Fin cfg1.N) (q : Fin 2048) (o : Fin 4096)
    (ho : o.val = 2048 * (t.val / 8 % 2) + q.val) :
    (iblk1 V c 2 t : Vec Ideal S1x2048 .f32) (ix2 (0 : Fin 1) q) = biasAt (V c main_v2) o := by
  obtain ⟨-, -, -, -, e0, e1, -⟩ := blocks1 t
  unfold iblk1
  rw [View.read_apply]
  show V c main_v2 _ = V c main_v2 _
  refine congrArg (V c main_v2) (funext fun a => Fin.ext ?_)
  match a with
  | ⟨0, _⟩ => show win1_2.index t (0 : Fin 2) * 1 + 1 * 0 = 0; rw [e0]
  | ⟨1, _⟩ => show win1_2.index t (1 : Fin 2) * 2048 + 1 * q.val = o.val; rw [e1, ho]; omega

/-- A step's 512 products, when the d'-th is term 512 k + d' of a family of 4096, are that stretch of the family. -/
theorem step_sum_of (g : Fin 4096 → EReal) (k : ℕ) (x : Vec Ideal S2048x512 .f32) (w : Vec Ideal S2048x512 .bf16)
    (p q : Fin 2048)
    (hx : ∀ d' : Fin 512, ∃ hlt : 512 * k + d'.val < 4096, x (ix2 p d') * w (ix2 q d') = g ⟨512 * k + d'.val, hlt⟩) :
    ∑ d' : Fin 512, x (ix2 p d') * w (ix2 q d') = ∑ d ∈ Finset.range 512, ext g (512 * k + d) :=
  block_eq_range g 512 k _ hx

/-- One accumulation: a tile holding a prefix of 512 k terms (above some z) holds, after the step k, the prefix of
    512 (k + 1) terms. -/
theorem step_value (c : Dev nD) (t : Fin cfg1.N) (p q : Fin 2048) (r : Fin 8192) (o : Fin 4096)
    (hr : r.val = 2048 * (t.val / 16) + p.val) (ho : o.val = 2048 * (t.val / 8 % 2) + q.val)
    (acc : Vec Ideal S2048x2048 .f32) (k : ℕ) (hk : k = t.val % 8) (z : EReal)
    (hacc : acc (ix2 p q) = z + ∑ d ∈ Finset.range (512 * k), ext (rowTerm (V c main_v1) (V c main_v0) r o) d) :
    k1_pay2 (iblk1 V c 0 t) (iblk1 V c 1 t) acc (ix2 p q)
      = z + ∑ d ∈ Finset.range (512 * (k + 1)), ext (rowTerm (V c main_v1) (V c main_v0) r o) d := by
  have hk8 : t.val % 8 < 8 := Nat.mod_lt _ (by decide)
  refine (accum_at (iblk1 V c 0 t) (iblk1 V c 1 t) acc p q).trans ?_
  rw [hacc]
  refine (congrArg₂ (fun a b : EReal => a + b) rfl
    (step_sum_of (rowTerm (V c main_v1) (V c main_v0) r o) (t.val % 8) (iblk1 V c 0 t) (iblk1 V c 1 t) p q ?_)).trans ?_
  · intro d'
    have hd' : d'.val < 512 := d'.isLt
    have hlt : 512 * (t.val % 8) + d'.val < 4096 := by omega
    refine ⟨hlt, ?_⟩
    rw [xtile_at V c t p d' r ⟨_, hlt⟩ hr rfl, wtile1_at V c t q d' o ⟨_, hlt⟩ ho rfl]
    rfl
  · rw [← hk, add_assoc, prefix_add_block]

/-- THE ACCUMULATOR after point n, at entry (p, q) of its tile. -/
theorem acc_inv (c : Dev nD) : ∀ (n : ℕ) (h : n < cfg1.N) (p q : Fin 2048) (r : Fin 8192) (o : Fin 4096) (k : ℕ),
    r.val = 2048 * (n / 16) + p.val → o.val = 2048 * (n / 8 % 2) + q.val → k = n % 8 →
    (outsAt1 V c n h : Vec Ideal S2048x2048 .f32) (ix2 p q)
      = (Ideal.ofBits .f32 0x00000000#32 + ∑ d ∈ Finset.range (512 * (k + 1)), ext (rowTerm (V c main_v1) (V c main_v0) r o) d)
        + (if k = 7 then biasAt (V c main_v2) o else 0) := by
  intro n
  induction n with
  | zero =>
    intro h p q r o k hr ho hk
    have hA0 : (⟨0, h⟩ : Fin cfg1.N).val % 8 = 0 := rfl
    have hA1 : ¬(⟨0, h⟩ : Fin cfg1.N).val % 8 = 7 := by show ¬(0 % 8 = 7); decide
    rw [outsAt1_A V c ⟨0, h⟩ hA0 hA1, piece_A]
    obtain rfl : k = 0 := hk
    rw [if_neg (by decide), add_zero]
    exact step_value V c ⟨0, h⟩ p q r o hr ho (k1_pay1 (F := Ideal)) 0 rfl _
      (by rw [Nat.mul_zero, Finset.range_zero, Finset.sum_empty, add_zero]; rfl)
  | succ n ih =>
    intro h p q r o k hr ho hk
    by_cases h0 : (n + 1) % 8 = 0
    · have h1 : ¬(n + 1) % 8 = 7 := by omega
      rw [outsAt1_A V c ⟨n + 1, h⟩ h0 h1, piece_A]
      obtain rfl : k = 0 := by omega
      rw [if_neg (by decide), add_zero]
      exact step_value V c ⟨n + 1, h⟩ p q r o hr ho (k1_pay1 (F := Ideal)) 0 h0.symm _
        (by rw [Nat.mul_zero, Finset.range_zero, Finset.sum_empty, add_zero]; rfl)
    · by_cases h1 : (n + 1) % 8 = 7
      · rw [outsAt1_C V c ⟨n + 1, h⟩ h0 h1, piece_C]
        obtain rfl : k = 7 := by omega
        rw [if_pos rfl]
        refine (bias_at _ _ p q).trans ?_
        rw [btile1_at V c ⟨n + 1, h⟩ q o ho]
        refine congrArg₂ (fun a b : EReal => a + b) ?_ rfl
        refine step_value V c ⟨n + 1, h⟩ p q r o hr ho _ 7 ?_ _ ?_
        · show 7 = (n + 1) % 8
          exact h1.symm
        · have hprev := ih (Nat.lt_of_succ_lt h) p q r o 6 (by omega) (by omega) (by omega)
          rw [if_neg (by decide), add_zero] at hprev
          exact hprev
      · rw [outsAt1_B V c ⟨n + 1, h⟩ h0 h1, piece_B]
        obtain ⟨k', rfl⟩ : ∃ k', k = k' + 1 := ⟨k - 1, by omega⟩
        rw [if_neg (by omega), add_zero]
        refine step_value V c ⟨n + 1, h⟩ p q r o hr ho _ (k' + 1) hk _ ?_
        have hprev := ih (Nat.lt_of_succ_lt h) p q r o k' (by omega) (by omega) (by omega)
        rw [if_neg (by omega), add_zero] at hprev
        exact hprev

/-- What a flushing point (k = 7) writes back is its block of the result. -/
theorem acc_flushed (c : Dev nD) (t : Fin cfg1.N) (hf : (cfg1.win 3).flush t = true) :
    (dat1 V c).flushed 3 t
      = ((cfg1.win 3).blk t).view.read (Elt Ideal) (outArr (V c main_v1) (V c main_v0) (V c main_v2)) := by
  have h7 : t.val % 8 = 7 := (flush1_3 t).mp hf
  have hN : t.val < 64 := lt_of_lt_of_eq t.isLt N_1
  obtain ⟨-, -, -, -, -, -, e30, e31⟩ := blocks1 t
  show (cfg1.win 3).cut (grid1.coords t) ((dat1 V c).after 3 t) = _
  rw [after1_3]
  funext y
  obtain ⟨p, q, rfl⟩ : ∃ (p q : Fin 2048), y = ix2 p q := ⟨y 0, y 1, eq_ix2 y⟩
  have hp := p.isLt
  have hq := q.isLt
  let r : Fin 8192 := ⟨2048 * (t.val / 16) + p.val, by omega⟩
  let o : Fin 4096 := ⟨2048 * (t.val / 8 % 2) + q.val, by omega⟩
  have hemb : ((cfg1.win 3).blk t).view.emb (ix2 p q) = (ix2 r o : S8192x4096.Idx) := by
    refine funext fun a => Fin.ext ?_
    match a with
    | ⟨0, _⟩ => show win1_3.index t (0 : Fin 2) * 2048 + 1 * p.val = 2048 * (t.val / 16) + p.val; rw [e30]; omega
    | ⟨1, _⟩ => show win1_3.index t (1 : Fin 2) * 2048 + 1 * q.val = 2048 * (t.val / 8 % 2) + q.val; rw [e31]; omega
  rw [View.read_apply, hemb]
  show (outsAt1 V c t.val t.isLt : Vec Ideal S2048x2048 .f32) (ix2 p q) = outAt _ _ _ r o
  refine (acc_inv V c t.val t.isLt p q r o 7 rfl rfl h7.symm).trans ?_
  rw [if_pos rfl]
  unfold outAt
  rw [sum_univ_eq_range]

/-- An entry is in point t's block iff each coordinate is in the block's range. -/
theorem acc_mem_blk (t : Fin cfg1.N) (i : S8192x4096.Idx) :
    i ∈ ((cfg1.win 3).blk t).view.set ↔ ∀ a : Fin 2, win1_3.index t a * S2048x2048.size a ≤ (i a).val
      ∧ (i a).val < win1_3.index t a * S2048x2048.size a + S2048x2048.size a := by
  show i ∈ ((View.whole main_v3).slice (win1_3.rect t)).set ↔ _
  rw [View.set_slice_whole, Rect.mem_set_unit]
  exact Iff.rfl

/-- Stage two leaves  x * weight^T + bias  of the arrays it finds. -/
theorem acc_final (c : Dev nD) :
    (dat1 V c).arrAt 3 cfg1.N = outArr (V c main_v1) (V c main_v0) (V c main_v2) :=
  (dat1 V c).arrAt_eq_of_cover 3 (outArr (V c main_v1) (V c main_v0) (V c main_v2)) (acc_flushed V c) fun i => by
    have hi0 : (i 0).val < 8192 := (i 0).isLt
    have hi1 : (i 1).val < 4096 := (i 1).isLt
    have hN : cfg1.N = 64 := N_1
    have hlt : 16 * ((i 0).val / 2048) + 8 * ((i 1).val / 2048) + 7 < cfg1.N := by rw [hN]; omega
    obtain ⟨-, -, -, -, -, -, e30, e31⟩ := blocks1 ⟨_, hlt⟩
    refine ⟨⟨_, hlt⟩, (flush1_3 _).mpr (by dsimp only; omega), ?_⟩
    rw [acc_mem_blk]
    intro a
    match a with
    | ⟨0, _⟩ =>
      show win1_3.index ⟨_, hlt⟩ (0 : Fin 2) * 2048 ≤ (i 0).val ∧ (i 0).val < win1_3.index ⟨_, hlt⟩ (0 : Fin 2) * 2048 + 2048
      rw [e30]; dsimp only; omega
    | ⟨1, _⟩ =>
      show win1_3.index ⟨_, hlt⟩ (1 : Fin 2) * 2048 ≤ (i 1).val ∧ (i 1).val < win1_3.index ⟨_, hlt⟩ (1 : Fin 2) * 2048 + 2048
      rw [e31]; dsimp only; omega

end Cert.KernelSide

end
-- ==== Proof.LibHostIdx.lean ====
/-
  Layout operations of the host programs read at an index, over literal ranks: a vector broadcast into a one-column
  matrix, a vector cast to a one-column or one-row matrix and back.  Each moves no data: the element at (e, 0) or (0, k)
  of the matrix is the vector's element e or k.
-/
import Idealize.ShloMosaic.Lib.ValueIdx
import Idealize.ShloMosaic.Lib.Pipeline.Value

noncomputable section

namespace Cert.Lib.HostIdx

open Idealize.ShloMosaic Idealize.ShloMosaic.ValueIdx

variable {α : Type}

/-- A vector broadcast along axis 0 into a one-column matrix: entry (e, 0) is the vector's entry e. -/
theorem bcastCol_apply {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e (0 : Fin 1)) = v (ix1 e) :=
  broadcastInDim_apply _ h v (ix2 e (0 : Fin 1)) (ix1 e) (fun a => match a with
    | ⟨0, _⟩ => by
      show e.val = if E = 1 then 0 else e.val
      split
      · have := e.isLt; omega
      · rfl)

/-- A vector cast to a one-column matrix: entry (n, 0) is the vector's entry n. -/
theorem castCol_apply {N : Nat} (h : (⟨1, ![N]⟩ : Shape).ShapeCasts ⟨2, ![N, 1]⟩)
    (v : (⟨1, ![N]⟩ : Shape).Idx → α) (n : Fin N) :
    shapeCast ⟨2, ![N, 1]⟩ v h (ix2 n (0 : Fin 1)) = v (ix1 n) :=
  shapeCast_apply v h (ix2 n (0 : Fin 1)) (ix1 n) (by
    rw [Shape.rowMajor_val_one, Shape.rowMajor_val_two]
    show n.val = n.val * 1 + 0
    omega)

/-- A one-column matrix cast to a vector: entry n is the matrix's entry (n, 0). -/
theorem castFlat_apply {N : Nat} (h : (⟨2, ![N, 1]⟩ : Shape).ShapeCasts ⟨1, ![N]⟩)
    (v : (⟨2, ![N, 1]⟩ : Shape).Idx → α) (n : Fin N) :
    shapeCast ⟨1, ![N]⟩ v h (ix1 n) = v (ix2 n (0 : Fin 1)) :=
  shapeCast_apply v h (ix1 n) (ix2 n (0 : Fin 1)) (by
    rw [Shape.rowMajor_val_one, Shape.rowMajor_val_two]
    show n.val * 1 + 0 = n.val
    omega)

/-- A vector cast to a one-row matrix: entry (0, k) is the vector's entry k. -/
theorem castRow_apply {D : Nat} (h : (⟨1, ![D]⟩ : Shape).ShapeCasts ⟨2, ![1, D]⟩)
    (v : (⟨1, ![D]⟩ : Shape).Idx → α) (k : Fin D) :
    shapeCast ⟨2, ![1, D]⟩ v h (ix2 (0 : Fin 1) k) = v (ix1 k) :=
  shapeCast_apply v h (ix2 (0 : Fin 1) k) (ix1 k) (by
    rw [Shape.rowMajor_val_one, Shape.rowMajor_val_two]
    show k.val = 0 * D + k.val
    omega)

/-- A one-column matrix cast to a one-row matrix: entry (0, q) is the column's entry (q, 0). -/
theorem castColRow_apply {D : Nat} (h : (⟨2, ![D, 1]⟩ : Shape).ShapeCasts ⟨2, ![1, D]⟩)
    (v : (⟨2, ![D, 1]⟩ : Shape).Idx → α) (q : Fin D) :
    shapeCast ⟨2, ![1, D]⟩ v h (ix2 (0 : Fin 1) q) = v (ix2 q (0 : Fin 1)) :=
  shapeCast_apply v h (ix2 (0 : Fin 1) q) (ix2 q (0 : Fin 1)) (by
    rw [Shape.rowMajor_val_two, Shape.rowMajor_val_two]
    show q.val * 1 + 0 = 0 * D + q.val
    omega)

end Cert.Lib.HostIdx

end
-- ==== Proof.KernelRun.lean ====
/-
  The whole idealized kernel: what its result array holds after the run.

  Stage one finds the launch arrays and leaves the effective weight.  Between the stages x is re-laid as
  8192 x 4096 (row 2048 b + s is x's row (b, s)) and the bias as one row; stage two leaves
  x * weight^T + bias of those; the last operation re-lays that as 4 x 2048 x 4096.  So the result at (b, s, o) is
      (zero + sum over d < 4096 of x(b, s, d) * (w(o, d) + 2 * sum over r < 16 of lb(o, r) * la(r, d))) + bias(o),
  a function of the five argument arrays alone.  The run itself is the program's frame run with one more buffer read
  back at the end: the result beside the arguments.
-/
import proofs.«147459_j11055245819948_2_alg».proof.Proof.Gen.KernelIdeal.Frame
import proofs.«147459_j11055245819948_2_alg».proof.Proof.EffWeight
import proofs.«147459_j11055245819948_2_alg».proof.Proof.AccValue
import proofs.«147459_j11055245819948_2_alg».proof.Proof.LibHostIdx
import Idealize.ShloMosaic.Lib.StableHlo.Run
import Idealize.ShloMosaic.Lib.Pipeline.Value

set_option maxRecDepth 16384

noncomputable section

namespace Cert.KernelSide

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## The result in closed form -/

/-- The result at (b, s, o), from the five argument arrays. -/
def kernelAt (x : S4x2048x4096.Idx → EReal) (w : S4096x4096.Idx → EReal) (la : S16x4096.Idx → EReal)
    (lb : S4096x16.Idx → EReal) (bias : S4096.Idx → EReal) (b : Fin 4) (s : Fin 2048) (o : Fin 4096) : EReal :=
  (Ideal.ofBits .f32 0x00000000#32 + ∑ d : Fin 4096, x (ix3 b s d) * ewAt w la lb o d) + bias (ix1 o)

/-- The same as an array. -/
def kernelArr (x : S4x2048x4096.Idx → EReal) (w : S4096x4096.Idx → EReal) (la : S16x4096.Idx → EReal)
    (lb : S4096x16.Idx → EReal) (bias : S4096.Idx → EReal) : S4x2048x4096.Idx → EReal :=
  fun i => kernelAt x w la lb bias (i 0) (i 1) (i 2)

/-! ## What each stage finds -/

/-- After stage one its result array holds the effective weight of the launch arrays. -/
theorem after_stage1 (c : Dev nD) :
    V1 m ρ c main_v0 = ewArr (m ((c : Thread nD τ).loc main_arg1)) (m ((c : Thread nD τ).loc main_arg2)) (m ((c : Thread nD τ).loc main_arg3)) :=
  (hF0 m ρ c 3).symm.trans (ew_final (V0 m ρ) c)

/-- Stage two finds the effective weight, -/
theorem entry2_w (c : Dev nD) :
    V2 m ρ c main_v0 = ewArr (m ((c : Thread nD τ).loc main_arg1)) (m ((c : Thread nD τ).loc main_arg2)) (m ((c : Thread nD τ).loc main_arg3)) := by
  show StableHlo.after hostOps1 (W1 m ρ c) (Proc.devRef .tc main_v0) = _
  after_results
  exact after_stage1 m ρ c

/-- x re-laid as 8192 x 4096, -/
theorem entry2_x (c : Dev nD) :
    V2 m ρ c main_v1 = shapeCast S8192x4096 (m ((c : Thread nD τ).loc main_arg0)) shapeCasts_S4x2048x4096_S8192x4096 := by
  show StableHlo.after hostOps1 (W1 m ρ c) (Proc.devRef .tc main_v1) = _
  after_results
  rw [W1_of_ne m ρ c main_arg0 (by decide)]
  rfl

/-- and the bias as one row. -/
theorem entry2_b (c : Dev nD) :
    V2 m ρ c main_v2 = shapeCast S1x4096 (m ((c : Thread nD τ).loc main_arg4)) shapeCasts_S4096_S1x4096 := by
  show StableHlo.after hostOps1 (W1 m ρ c) (Proc.devRef .tc main_v2) = _
  after_results
  rw [W1_of_ne m ρ c main_arg4 (by decide)]
  rfl

/-- The result buffer at the end: stage two's array re-laid as 4 x 2048 x 4096. -/
theorem result_relaid (c : Dev nD) :
    W4 m ρ c (Proc.devRef .tc main_v4)
      = shapeCast S4x2048x4096 (outArr (V2 m ρ c main_v1) (V2 m ρ c main_v0) (V2 m ρ c main_v2)) shapeCasts_S8192x4096_S4x2048x4096 := by
  show StableHlo.after hostOps2 (W3 m ρ c) (Proc.devRef .tc main_v4) = _
  after_results
  have h3 : W3 m ρ c (Proc.devRef .tc main_v3) = outArr (V2 m ρ c main_v1) (V2 m ρ c main_v0) (V2 m ρ c main_v2) :=
    (W3_arr m ρ c 3).trans (acc_final (V2 m ρ) c)
  rw [h3]
  rfl

/-- The result buffer at the end, in closed form. -/
theorem result_closed (c : Dev nD) :
    W4 m ρ c (Proc.devRef .tc main_v4)
      = kernelArr (m ((c : Thread nD τ).loc main_arg0)) (m ((c : Thread nD τ).loc main_arg1)) (m ((c : Thread nD τ).loc main_arg2))
          (m ((c : Thread nD τ).loc main_arg3)) (m ((c : Thread nD τ).loc main_arg4)) := by
  rw [result_relaid, entry2_w, entry2_x, entry2_b]
  funext i
  obtain ⟨b, s, o, rfl⟩ : ∃ (b : Fin 4) (s : Fin 2048) (o : Fin 4096), i = ix3 b s o := ⟨i 0, i 1, i 2, eq_ix3 i⟩
  have hb := b.isLt
  have hs := s.isLt
  have ho := o.isLt
  let r : Fin 8192 := ⟨2048 * b.val + s.val, by omega⟩
  rw [shapeCast_apply _ shapeCasts_S8192x4096_S4x2048x4096 (ix3 b s o) (ix2 r o : S8192x4096.Idx) (by
    rw [Shape.rowMajor_val_two, Shape.rowMajor_val_three]
    show (2048 * b.val + s.val) * 4096 + o.val = (b.val * 2048 + s.val) * 4096 + o.val
    omega)]
  show outAt _ _ _ r o = kernelAt _ _ _ _ _ b s o
  unfold outAt kernelAt biasAt rowTerm
  refine congrArg₂ (fun u v : EReal => u + v) (congrArg (fun u : EReal => Ideal.ofBits .f32 0x00000000#32 + u)
    (Finset.sum_congr rfl fun d _ => ?_)) ?_
  · refine congrArg₂ (fun u v : EReal => u * v) ?_ rfl
    exact shapeCast_apply _ shapeCasts_S4x2048x4096_S8192x4096 (ix2 r d : S8192x4096.Idx) (ix3 b s d) (by
      rw [Shape.rowMajor_val_two, Shape.rowMajor_val_three]
      show (b.val * 2048 + s.val) * 4096 + d.val = (2048 * b.val + s.val) * 4096 + d.val
      omega)
  · exact Cert.Lib.HostIdx.castRow_apply shapeCasts_S4096_S1x4096 _ o

/-! ## The run -/

-- the launch theorem's implicit arguments are found by unifying its conclusion with this one, which takes unfolding
-- plain definitions in a metavariable's type
set_option backward.isDefEq.respectTransparency.types false in
/-- Every weakly fair execution of the idealized kernel terminates, nothing faulting, with the result array at
    `kernelArr` of the launch contents of the five arguments, and the arguments as launched. -/
theorem run : θ_run defs (onTc (τ := τ) (main (F := Ideal))) ⟨m, fun _ => 0, ρ⟩ (fun r => ∀ c : Dev nD,
      r.2.mem ((c.tc : Thread nD τ).loc main_v4)
        = kernelArr (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v4 (by decide))).trans (result_closed m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelSide

end
-- ==== Proof.RefValue.lean ====
/-
  The reference's result read at an index, at the ideal values.

  Its last stage at (b, s, o) is  (sum over d < 4096 of x(b, s, d) * ew(o, d)) + bias(o)  where
  ew(o, d) = w(o, d) + 2 * sum over r < 16 of lb(o, r) * la(r, d):  the two contractions as plain sums, the two
  broadcasts of the bias read where they copy from, the splat of 2 at every index.
-/
import proofs.«147459_j11055245819948_2_alg».proof.Proof.Gen.ReferenceIdeal.Read
import Idealize.ShloMosaic.Lib.ValueIdx
import Idealize.ShloMosaic.PureOps.Ideal.Laws

noncomputable section

namespace Cert.RefSide

open Idealize.ShloMosaic Idealize.ShloMosaic.ValueIdx
open Cert.ReferenceIdeal Cert.ReferenceIdeal.Read

/-- Where the outer contraction reads x and the effective weight. -/
theorem outer_lhs (b : Fin 4) (s : Fin 2048) (o : Fin 4096) (k : Fin 4096) :
    lidx_main_v4 (ix3 b s o) k = (ix3 b s k : S4x2048x4096.Idx) :=
  funext fun a => Fin.ext (by match a with | ⟨0, _⟩ => rfl | ⟨1, _⟩ => rfl | ⟨2, _⟩ => rfl)

theorem outer_rhs (b : Fin 4) (s : Fin 2048) (o : Fin 4096) (k : Fin 4096) :
    ridx_main_v4 (ix3 b s o) k = (ix2 o k : S4096x4096.Idx) :=
  funext fun a => Fin.ext (by match a with | ⟨0, _⟩ => rfl | ⟨1, _⟩ => rfl)

/-- Where the inner contraction reads the two low-rank factors. -/
theorem inner_lhs (o d : Fin 4096) (r : Fin 16) :
    lidx_main_v0 (ix2 o d) r = (ix2 o r : S4096x16.Idx) :=
  funext fun a => Fin.ext (by match a with | ⟨0, _⟩ => rfl | ⟨1, _⟩ => rfl)

theorem inner_rhs (o d : Fin 4096) (r : Fin 16) :
    ridx_main_v0 (ix2 o d) r = (ix2 r d : S16x4096.Idx) :=
  funext fun a => Fin.ext (by match a with | ⟨0, _⟩ => rfl | ⟨1, _⟩ => rfl)

/-- Where the two broadcasts read the bias. -/
theorem bias_idx (b : Fin 4) (s : Fin 2048) (o : Fin 4096) :
    idx_main_v5 (idx_main_v6 (ix3 b s o)) = (ix1 o : S4096.Idx) :=
  funext fun a => Fin.ext (by match a with | ⟨0, _⟩ => rfl)

/-- The effective weight as the reference computes it, at (o, d). -/
theorem weight_at (x1 : (⟨S4096x4096, .f32⟩ : BufTy).Contents (Elt Ideal)) (x2 : (⟨S16x4096, .f32⟩ : BufTy).Contents (Elt Ideal))
    (x3 : (⟨S4096x16, .f32⟩ : BufTy).Contents (Elt Ideal)) (o d : Fin 4096) :
    val_main_v3 (F := Ideal) x1 x2 x3 (ix2 o d)
      = x1 (ix2 o d) + Ideal.ofBits .f32 0x40000000#32 * ∑ r : Fin 16, x3 (ix2 o r) * x2 (ix2 r d) := by
  rw [val_main_v3_apply, val_main_v2_apply, val_main_v1_apply, val_main_cst_apply, val_main_v0_apply]
  simp only [inner_lhs, inner_rhs]
  rfl

/-- The reference's result at (b, s, o). -/
theorem ref_at (x0 : (⟨S4x2048x4096, .f32⟩ : BufTy).Contents (Elt Ideal)) (x1 : (⟨S4096x4096, .f32⟩ : BufTy).Contents (Elt Ideal))
    (x2 : (⟨S16x4096, .f32⟩ : BufTy).Contents (Elt Ideal)) (x3 : (⟨S4096x16, .f32⟩ : BufTy).Contents (Elt Ideal))
    (x4 : (⟨S4096, .f32⟩ : BufTy).Contents (Elt Ideal)) (b : Fin 4) (s : Fin 2048) (o : Fin 4096) :
    val_main_v7 (F := Ideal) x0 x1 x2 x3 x4 (ix3 b s o)
      = (∑ d : Fin 4096, x0 (ix3 b s d)
            * (x1 (ix2 o d) + Ideal.ofBits .f32 0x40000000#32 * ∑ r : Fin 16, x3 (ix2 o r) * x2 (ix2 r d)))
        + x4 (ix1 o) := by
  rw [val_main_v7_apply, val_main_v4_apply, val_main_v6_apply, val_main_v5_apply, bias_idx]
  simp only [outer_lhs, outer_rhs, weight_at]
  rfl

end Cert.RefSide

end
-- ==== Proof.Bridge.lean ====
/-
  The two sides are one function of the arguments.

  The kernel's result at (b, s, o) is  (zero + S) + bias(o)  and the reference's  S + bias(o),  with the same
  S = sum over d < 4096 of x(b, s, d) * (w(o, d) + 2 * sum over r < 16 of lb(o, r) * la(r, d)),  term for term: the
  kernel's blockwise accumulation has already been regrouped into the one sum on its own side, so all that is left
  is that the f32 zero word is the extended real 0.
-/
import proofs.«147459_j11055245819948_2_alg».proof.Proof.KernelRun
import proofs.«147459_j11055245819948_2_alg».proof.Proof.RefValue

noncomputable section

namespace Cert.Bridge

open Idealize.ShloMosaic Idealize.ShloMosaic.ValueIdx

/-- The idealized kernel's result array is the reference's last stage, as functions of the five arguments. -/
theorem kernel_eq_ref
    (x0 : (⟨Cert.ReferenceIdeal.S4x2048x4096, .f32⟩ : BufTy).Contents (Elt Ideal))
    (x1 : (⟨Cert.ReferenceIdeal.S4096x4096, .f32⟩ : BufTy).Contents (Elt Ideal))
    (x2 : (⟨Cert.ReferenceIdeal.S16x4096, .f32⟩ : BufTy).Contents (Elt Ideal))
    (x3 : (⟨Cert.ReferenceIdeal.S4096x16, .f32⟩ : BufTy).Contents (Elt Ideal))
    (x4 : (⟨Cert.ReferenceIdeal.S4096, .f32⟩ : BufTy).Contents (Elt Ideal)) :
    Cert.KernelSide.kernelArr x0 x1 x2 x3 x4 = Cert.ReferenceIdeal.Read.val_main_v7 (F := Ideal) x0 x1 x2 x3 x4 := by
  funext i
  obtain ⟨b, s, o, rfl⟩ : ∃ (b : Fin 4) (s : Fin 2048) (o : Fin 4096), i = ix3 b s o := ⟨i 0, i 1, i 2, eq_ix3 i⟩
  rw [Cert.RefSide.ref_at]
  show Cert.KernelSide.kernelAt x0 x1 x2 x3 x4 b s o = _
  unfold Cert.KernelSide.kernelAt Cert.KernelSide.ewAt
  rw [Ideal.ofBits_zero_f32, zero_add]

end Cert.Bridge

end
-- ==== Proof.lean ====
/- The proof of `Cert.Claim`.

   The kernel computes a LoRA-updated linear layer in two stages: an effective weight
   ew = w + 2 * (lb * la), then x * ew^T + bias with each entry's 4096 products accumulated 512 at a time in an
   output tile that stays resident over the last grid axis.  The reference computes the same effective weight and
   one contraction over all 4096 positions.  At the ideal values both are, at (b, s, o),
       sum over d of x(b, s, d) * (w(o, d) + 2 * sum over r of lb(o, r) * la(r, d)) + bias(o):
   the roundings to bf16 are the identity, each matrix product is the plain sum over its contracted axis, and the
   kernel's chain  ((zero + S_0) + S_1) + ... + S_7  of block sums is the one sum by associativity alone, which
   holds on all of the extended reals — so the finiteness of the inputs is never used.

   Proof/Payloads.lean reads the kernels' arithmetic at an index; Proof/EffWeight.lean is the first stage's array;
   Proof/AccPieces.lean and Proof/AccValue.lean the second stage's (the accumulator by induction on the grid point,
   over Proof/LibSumBlocks.lean's prefix sums); Proof/KernelRun.lean the host re-layings and the run;
   Proof/RefValue.lean the reference at an index; Proof/Bridge.lean the equality.  The three frames are the generated
   ones (the reference's is its generated run with the result dropped); the ideal pass rewrote nothing. -/
import proofs.«147459_j11055245819948_2_alg».proof.Defs
import proofs.«147459_j11055245819948_2_alg».proof.Proof.Gen.Kernel
import proofs.«147459_j11055245819948_2_alg».proof.Proof.Gen.Kernel.Skeleton
import proofs.«147459_j11055245819948_2_alg».proof.Proof.Gen.Kernel.Launch
import proofs.«147459_j11055245819948_2_alg».proof.Proof.Gen.Kernel.Points
import proofs.«147459_j11055245819948_2_alg».proof.Proof.Gen.Kernel.Frame
import proofs.«147459_j11055245819948_2_alg».proof.Proof.Gen.KernelIdeal
import proofs.«147459_j11055245819948_2_alg».proof.Proof.Gen.KernelIdeal.Skeleton
import proofs.«147459_j11055245819948_2_alg».proof.Proof.Gen.KernelIdeal.Launch
import proofs.«147459_j11055245819948_2_alg».proof.Proof.Gen.KernelIdeal.Points
import proofs.«147459_j11055245819948_2_alg».proof.Proof.Gen.KernelIdeal.Frame
import proofs.«147459_j11055245819948_2_alg».proof.Proof.Gen.ReferenceIdeal
import proofs.«147459_j11055245819948_2_alg».proof.Proof.Gen.ReferenceIdeal.Run
import proofs.«147459_j11055245819948_2_alg».proof.Proof.Gen.ReferenceIdeal.Read
import proofs.«147459_j11055245819948_2_alg».proof.Proof.Gen.Pre_finite_inputs
import proofs.«147459_j11055245819948_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments, the idealized kernel's result array and the idealized reference's
    end equal: both at one function of the five arguments. -/
theorem algebraic : Cert.algebraic_KernelIdeal_ReferenceIdeal := by
  intro m ρ m' ρ' _ hagree
  refine ⟨_, Cert.KernelSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, (hagree c).1, (hagree c).2.1, (hagree c).2.2.1, (hagree c).2.2.2.1,
    (hagree c).2.2.2.2]
  exact (Cert.Bridge.kernel_eq_ref _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
